-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x4608 : Shape := ⟨3, ![2048, 4, 4608]⟩
abbrev S_ : Shape := ⟨0, ![]⟩

class Facts : Prop where
  bcast_S_S2048x4x4608 : S_.BroadcastsInDim S2048x4x4608 (![] : Fin 0 → Fin S2048x4x4608.rank)
  reducesTo_S2048x4x4608_S_d0_1_2 : S2048x4x4608.ReducesTo [0, 1, 2] S_
  h_S_ : 0 < S_.numel

variable [Facts]

def fn_part1 {F : FTy → Type} [FloatOps F] (main_arg0 : FVec F S2048x4x4608 .f32) (main_arg1 : FVec F S2048x4x4608 .f32) (main_v13 : IVec S_ 1) (main_v16 : IVec S2048x4x4608 1) : IVec S_ 1 :=
  let main_c_5 : IVec S_ 1 := constantI S_ 1 1#1
  let main_v17 : IVec S_ 1 := (fun x v => Host.reduce IntOp.andi x v reducesTo_S2048x4x4608_S_d0_1_2 h_S_) main_v16 main_c_5
  let main_v18 : IVec S_ 1 := andi main_v13 main_v17
  let main_v19 : FVec F S2048x4x4608 .f32 := mulf main_arg0 main_arg1
  let main_cst_6 : FVec F S_ .f32 := constant S_ .f32 0x3089705F#32
  let main_v20 : FVec F S2048x4x4608 .f32 := broadcastInDim S2048x4x4608 ![] bcast_S_S2048x4x4608 main_cst_6
  let main_v21 : FVec F S2048x4x4608 .f32 := addf main_v19 main_v20
  let main_cst_7 : FVec F S_ .f32 := constant S_ .f32 0x00000000#32
  let main_v22 : FVec F S2048x4x4608 .f32 := broadcastInDim S2048x4x4608 ![] bcast_S_S2048x4x4608 main_cst_7
  let main_v23 : IVec S2048x4x4608 1 := cmpf .ogt main_v21 main_v22
  let main_c_8 : IVec S_ 1 := constantI S_ 1 1#1
  let main_v24 : IVec S_ 1 := (fun x v => Host.reduce IntOp.andi x v reducesTo_S2048x4x4608_S_d0_1_2 h_S_) main_v23 main_c_8
  let main_v25 : IVec S_ 1 := andi main_v18 main_v24
  main_v25

def fn {F : FTy → Type} [FloatOps F] (main_arg0 : FVec F S2048x4x4608 .f32) (main_arg1 : FVec F S2048x4x4608 .f32) (main_arg2 : FVec F S2048x4x4608 .f32) (main_arg3 : FVec F S2048x4x4608 .f32) : IVec S_ 1 :=
  let main_v0 : FVec F S2048x4x4608 .f32 := Host.absf main_arg0
  let main_cst : FVec F S_ .f32 := constant S_ .f32 0x7F800000#32
  let main_v1 : FVec F S2048x4x4608 .f32 := broadcastInDim S2048x4x4608 ![] bcast_S_S2048x4x4608 main_cst
  let main_v2 : IVec S2048x4x4608 1 := cmpf .olt main_v0 main_v1
  let main_c : IVec S_ 1 := constantI S_ 1 1#1
  let main_v3 : IVec S_ 1 := (fun x v => Host.reduce IntOp.andi x v reducesTo_S2048x4x4608_S_d0_1_2 h_S_) main_v2 main_c
  let main_v4 : FVec F S2048x4x4608 .f32 := Host.absf main_arg1
  let main_cst_0 : FVec F S_ .f32 := constant S_ .f32 0x7F800000#32
  let main_v5 : FVec F S2048x4x4608 .f32 := broadcastInDim S2048x4x4608 ![] bcast_S_S2048x4x4608 main_cst_0
  let main_v6 : IVec S2048x4x4608 1 := cmpf .olt main_v4 main_v5
  let main_c_1 : IVec S_ 1 := constantI S_ 1 1#1
  let main_v7 : IVec S_ 1 := (fun x v => Host.reduce IntOp.andi x v reducesTo_S2048x4x4608_S_d0_1_2 h_S_) main_v6 main_c_1
  let main_v8 : IVec S_ 1 := andi main_v3 main_v7
  let main_v9 : FVec F S2048x4x4608 .f32 := Host.absf main_arg2
  let main_cst_2 : FVec F S_ .f32 := constant S_ .f32 0x7F800000#32
  let main_v10 : FVec F S2048x4x4608 .f32 := broadcastInDim S2048x4x4608 ![] bcast_S_S2048x4x4608 main_cst_2
  let main_v11 : IVec S2048x4x4608 1 := cmpf .olt main_v9 main_v10
  let main_c_3 : IVec S_ 1 := constantI S_ 1 1#1
  let main_v12 : IVec S_ 1 := (fun x v => Host.reduce IntOp.andi x v reducesTo_S2048x4x4608_S_d0_1_2 h_S_) main_v11 main_c_3
  let main_v13 : IVec S_ 1 := andi main_v8 main_v12
  let main_v14 : FVec F S2048x4x4608 .f32 := Host.absf main_arg3
  let main_cst_4 : FVec F S_ .f32 := constant S_ .f32 0x7F800000#32
  let main_v15 : FVec F S2048x4x4608 .f32 := broadcastInDim S2048x4x4608 ![] bcast_S_S2048x4x4608 main_cst_4
  let main_v16 : IVec S2048x4x4608 1 := cmpf .olt main_v14 main_v15
  fn_part1 (F := F) main_arg0 main_arg1 main_v13 main_v16
-- ==== Kernel.lean ====
abbrev S2048x4x4608 : Shape := ⟨3, ![2048, 4, 4608]⟩
abbrev S2048x4x4 : Shape := ⟨3, ![2048, 4, 4]⟩
abbrev S16x4x4608 : Shape := ⟨3, ![16, 4, 4608]⟩
abbrev S16x4x4 : Shape := ⟨3, ![16, 4, 4]⟩
abbrev S16x4 : Shape := ⟨2, ![16, 4]⟩
abbrev S16x4x1 : Shape := ⟨3, ![16, 4, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x4x4608, .f32⟩
  | .hbm, ⟨1, _⟩ => ⟨S2048x4x4608, .f32⟩
  | .hbm, ⟨2, _⟩ => ⟨S2048x4x4608, .f32⟩
  | .hbm, ⟨3, _⟩ => ⟨S2048x4x4608, .f32⟩
  | .hbm, ⟨4, _⟩ => ⟨S2048x4x4, .f32⟩
  | .local _ .vmem, ⟨0, _⟩ => ⟨S16x4x4608, .f32⟩
  | .local _ .vmem, ⟨1, _⟩ => ⟨S16x4x4608, .f32⟩
  | .local _ .vmem, ⟨2, _⟩ => ⟨S16x4x4608, .f32⟩
  | .local _ .vmem, ⟨3, _⟩ => ⟨S16x4x4608, .f32⟩
  | .local _ .vmem, ⟨4, _⟩ => ⟨S16x4x4608, .f32⟩
  | .local _ .vmem, ⟨5, _⟩ => ⟨S16x4x4608, .f32⟩
  | .local _ .vmem, ⟨6, _⟩ => ⟨S16x4x4608, .f32⟩
  | .local _ .vmem, ⟨7, _⟩ => ⟨S16x4x4608, .f32⟩
  | .local _ .vmem, ⟨8, _⟩ => ⟨S16x4x4, .f32⟩
  | .local _ .vmem, ⟨9, _⟩ => ⟨S16x4x4, .f32⟩
  | _, _ => ⟨S2048x4x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x4x4608_S16x4x4608_0_0_0 : ∀ a, (![0, 0, 0] : Fin 3 → Nat) a + S16x4x4608.size a ≤ S16x4x4608.size a
  h_S16x4x4608 : 0 < S16x4x4608.numel
  reduces_S16x4x4608_S16x4 : S16x4x4608.Reduces [2] S16x4
  shapeCasts_S16x4_S16x4x1 : S16x4.ShapeCasts S16x4x1
  broadcasts_S16x4x1_S16x4x4 : S16x4x1.Broadcasts S16x4x4
  inb_S16x4x4_S16x4x4_0_0_0 : ∀ a, (![0, 0, 0] : Fin 3 → Nat) a + S16x4x4.size a ≤ S16x4x4.size a
  h_S16x4x4 : 0 < S16x4x4.numel
  dot_S16x4x4608_S16x4x4608_S16x4x4_2_2_1_1_0_0_wf : DotDims.WF S16x4x4608 S16x4x4608 S16x4x4 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x4608.size a ≤ S2048x4x4608.size a
  hwx0_0 : ∀ i : grid0.Coords, EltTy.bits .f32 = 32 ∨ (Rect.block (s := S2048x4x4608) S16x4x4608.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x4608.size a ≤ S2048x4x4608.size a
  hwx0_1 : ∀ i : grid0.Coords, EltTy.bits .f32 = 32 ∨ (Rect.block (s := S2048x4x4608) S16x4x4608.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4x4608.size a ≤ S2048x4x4608.size a
  hwx0_2 : ∀ i : grid0.Coords, EltTy.bits .f32 = 32 ∨ (Rect.block (s := S2048x4x4608) S16x4x4608.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4x4608.size a ≤ S2048x4x4608.size a
  hwx0_3 : ∀ i : grid0.Coords, EltTy.bits .f32 = 32 ∨ (Rect.block (s := S2048x4x4608) S16x4x4608.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4x4.size a ≤ S2048x4x4.size a
  hwx0_4 : ∀ i : grid0.Coords, EltTy.bits .f32 = 32 ∨ (Rect.block (s := S2048x4x4) S16x4x4.size (cc0_transform_4 i) (hinb0_4 i)).WholeWords (EltTy.packing .f32)

variable [Facts₀]

def dot_S16x4x4608_S16x4x4608_S16x4x4_2_2_1_1_0_0 : DotDims S16x4x4608 S16x4x4608 S16x4x4 where
  lhsContracting := [2]
  rhsContracting := [2]
  lhsNonContracting := [1]
  rhsNonContracting := [1]
  lhsBatch := [0]
  rhsBatch := [0]
  wf := dot_S16x4x4608_S16x4x4608_S16x4x4_2_2_1_1_0_0_wf

abbrev win0_0 : Pipeline.Window sig grid0 :=
  Pipeline.Window.ofSpec (Memref.whole main_arg0) S16x4x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4x4608.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4x4608.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4x4608.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x4x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4x4608 : Shape := ⟨3, ![2048, 4, 4608]⟩
abbrev S_ : Shape := ⟨0, ![]⟩
abbrev S2048x4 : Shape := ⟨2, ![2048, 4]⟩
abbrev S2048x4x4 : Shape := ⟨3, ![2048, 4, 4]⟩
abbrev S2048x4x1 : Shape := ⟨3, ![2048, 4, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x4x4608, .f32⟩
  | .hbm, ⟨1, _⟩ => ⟨S2048x4x4608, .f32⟩
  | .hbm, ⟨2, _⟩ => ⟨S2048x4x4608, .f32⟩
  | .hbm, ⟨3, _⟩ => ⟨S2048x4x4608, .f32⟩
  | .hbm, ⟨4, _⟩ => ⟨S2048x4x4608, .f32⟩
  | .hbm, ⟨5, _⟩ => ⟨S2048x4x4608, .f32⟩
  | .hbm, ⟨6, _⟩ => ⟨S_, .f32⟩
  | .hbm, ⟨7, _⟩ => ⟨S2048x4x4608, .f32⟩
  | .hbm, ⟨8, _⟩ => ⟨S2048x4x4608, .f32⟩
  | .hbm, ⟨9, _⟩ => ⟨S2048x4x4608, .f32⟩
  | .hbm, ⟨10, _⟩ => ⟨S2048x4x4608, .f32⟩
  | .hbm, ⟨11, _⟩ => ⟨S_, .f32⟩
  | .hbm, ⟨12, _⟩ => ⟨S2048x4, .f32⟩
  | .hbm, ⟨13, _⟩ => ⟨S_, .f32⟩
  | .hbm, ⟨14, _⟩ => ⟨S2048x4x4608, .f32⟩
  | .hbm, ⟨15, _⟩ => ⟨S2048x4x4608, .f32⟩
  | .hbm, ⟨16, _⟩ => ⟨S2048x4x4608, .f32⟩
  | .hbm, ⟨17, _⟩ => ⟨S2048x4x4, .f32⟩
  | .hbm, ⟨18, _⟩ => ⟨S2048x4x1, .f32⟩
  | .hbm, ⟨19, _⟩ => ⟨S2048x4x4, .f32⟩
  | .hbm, ⟨20, _⟩ => ⟨S2048x4x4, .f32⟩
  | .hbm, ⟨21, _⟩ => ⟨S2048x4x4, .f32⟩
  | _, _ => ⟨S2048x4x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2048x4x4608 : S_.BroadcastsInDim S2048x4x4608 (![] : Fin 0 → Fin S2048x4x4608.rank)
  reducesTo_S2048x4x4608_S2048x4_d2 : S2048x4x4608.ReducesTo [2] S2048x4
  h_S_ : 0 < S_.numel
  bcast_S2048x4_S2048x4x1_0_1 : S2048x4.BroadcastsInDim S2048x4x1 (![0, 1] : Fin 2 → Fin S2048x4x1.rank)
  bcast_S2048x4x1_S2048x4x4_0_1_2 : S2048x4x1.BroadcastsInDim S2048x4x4 (![0, 1, 2] : Fin 3 → Fin S2048x4x4.rank)
  dot_S2048x4x4608_S2048x4x4608_S2048x4x4_2_2_1_1_0_0_wf : DotDims.WF S2048x4x4608 S2048x4x4608 S2048x4x4 [2] [2] [1] [1] [0] [0]

variable [Facts₀]

def dot_S2048x4x4608_S2048x4x4608_S2048x4x4_2_2_1_1_0_0 : DotDims S2048x4x4608 S2048x4x4608 S2048x4x4 where
  lhsContracting := [2]
  rhsContracting := [2]
  lhsNonContracting := [1]
  rhsNonContracting := [1]
  lhsBatch := [0]
  rhsBatch := [0]
  wf := dot_S2048x4x4608_S2048x4x4608_S2048x4x4_2_2_1_1_0_0_wf

class Facts : Prop extends Facts₀ where

variable [Facts]
-- ==== Proof.Spec.lean ====
/-
  The function both programs compute, stated once over literal shapes, and the two facts about extended reals that
  join them.

  For inputs a, m (first pair) and c, n (second pair) of shape [2048, 4, 4608] put p = a·m and q = c·n entrywise.
  The result at (b, i, j) is

      cross b i j − self b i,   cross b i j = ∑ₖ p[b,i,k] · log (q[b,j,k] + ε),   self b i = ∑ₖ p[b,i,k] · log (p[b,i,k] + ε),

  the negative of a Kullback–Leibler-type divergence between row i of p and row j of q. One program forms
  `cross − self` directly, the other forms `−(self − cross)`. On the extended reals these differ only when `self` and
  `cross` are the same infinity (⊤ − ⊤ = ⊥ while −(⊤ − ⊤) = ⊤); as soon as `self` is a real number they agree for every
  `cross`. And `self` is real whenever every p is real and p + ε is positive, because then each logarithm is real.
-/
import Idealize.ShloMosaic.PureOps.Ideal
import Idealize.ShloMosaic.PureOps.Ideal.Laws
import Idealize.ShloMosaic.Lib.ValueIdx

noncomputable section

namespace Cert.PairKL

open Idealize.ShloMosaic Idealize.ShloMosaic.ValueIdx

/-- The shape of each of the four inputs, and of the result. -/
abbrev SIn : Shape := ⟨3, ![2048, 4, 4608]⟩
abbrev SOut : Shape := ⟨3, ![2048, 4, 4]⟩

/-- The shift ε under both logarithms: the same binary word in both programs, never evaluated beyond "it is a real". -/
def shift : EReal := Ideal.ofBits .f32 0x3089705F#32

/-- An input times its mask at (b, i, k). -/
def masked (x y : SIn.Idx → EReal) (b : Fin 2048) (i : Fin 4) (k : Fin 4608) : EReal :=
  x (ix3 b i k) * y (ix3 b i k)

/-- ∑ₖ p[b,i,k] · log (q[b,j,k] + ε). -/
def cross (x0 x1 x2 x3 : SIn.Idx → EReal) (b : Fin 2048) (i j : Fin 4) : EReal :=
  ∑ k : Fin 4608, masked x0 x1 b i k * Ideal.log (masked x2 x3 b j k + shift)

/-- ∑ₖ p[b,i,k] · log (p[b,i,k] + ε). -/
def self (x0 x1 : SIn.Idx → EReal) (b : Fin 2048) (i : Fin 4) : EReal :=
  ∑ k : Fin 4608, masked x0 x1 b i k * Ideal.log (masked x0 x1 b i k + shift)

/-- The result array as one function of the four input arrays. -/
def G (x0 x1 x2 x3 : SIn.Idx → EReal) : SOut.Idx → EReal :=
  fun j => cross x0 x1 x2 x3 (j 0) (j 1) (j 2) - self x0 x1 (j 0) (j 1)

/-- The shift is a real number (a normal binary32 word is a dyadic rational). -/
theorem shift_real : ∃ e : ℝ, shift = (e : EReal) := by
  unfold shift
  simp [Ideal.ofBits, Ideal.ieee]
  exact ⟨_, (EReal.coe_mul _ _).symm⟩

/-- Next to a real number, negating a difference swaps it: −(a − c) = c − a for every extended real c. -/
theorem neg_sub_of_real (a : ℝ) (c : EReal) : -((a : EReal) - c) = c - (a : EReal) := by
  rw [EReal.neg_sub (Or.inl (EReal.coe_ne_bot a)) (Or.inl (EReal.coe_ne_top a)), add_comm, sub_eq_add_neg]

/-- A finite sum of real numbers, formed in the extended reals, is the real sum. -/
theorem sum_coe {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- On the logarithm's domain the row term is real: if at every k the input and its mask are real and their product plus ε
    is positive, then each p · log (p + ε) is a real number, and so is their sum. -/
theorem self_real (x0 x1 : SIn.Idx → EReal)
    (hdom : ∀ i : SIn.Idx, ∃ a b : ℝ, x0 i = (a : EReal) ∧ x1 i = (b : EReal) ∧ (0 : EReal) < x0 i * x1 i + shift)
    (b : Fin 2048) (i : Fin 4) : ∃ r : ℝ, self x0 x1 b i = (r : EReal) := by
  obtain ⟨e, he⟩ := shift_real
  have hterm : ∀ k : Fin 4608, ∃ r : ℝ, masked x0 x1 b i k * Ideal.log (masked x0 x1 b i k + shift) = (r : EReal) := by
    intro k
    obtain ⟨a, m, ha, hm, hpos⟩ := hdom (ix3 b i k)
    unfold masked
    rw [ha, hm, he] at hpos ⊢
    rw [← EReal.coe_mul, ← EReal.coe_add] at hpos ⊢
    have hp : ¬ (a * m + e ≤ 0) := not_le.mpr (EReal.coe_pos.mp hpos)
    rw [Ideal.log_coe, if_neg hp, ← EReal.coe_mul]
    exact ⟨_, rfl⟩
  choose r hr using hterm
  refine ⟨∑ k : Fin 4608, r k, ?_⟩
  unfold self
  rw [← sum_coe]
  exact Finset.sum_congr rfl fun k _ => hr k

end Cert.PairKL

end
-- ==== Proof.Domain.lean ====
/-
  The precondition read back at one index. The printed predicate is the conjunction of five universally
  quantified statements over the [2048, 4, 4608] arrays: |x0| < +∞, |x1| < +∞, |x2| < +∞, |x3| < +∞ and
  x0 · x1 + c > 0, elementwise, with c the f32 constant of pattern 0x3089705F. Over the extended reals,
  |x| < ⊤ (|x| written max x (-x)) excludes both infinities, so x0 i and x1 i are real numbers, and the
  last conjunct is the strict positivity of x0 i · x1 i + c.
-/
import proofs.«113611_j56367150792858_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PairKL.Domain

open Idealize.ShloMosaic

/-- A rank-0 shape has exactly one index. -/
instance : Subsingleton Cert.Pre_finite_inputs.S_.Idx := ⟨fun a b => funext fun d => d.elim0⟩

/-- The f32 pattern 0x7F800000 (sign 0, exponent all ones, fraction 0) denotes +∞. -/
theorem ofBits_inf : Ideal.ofBits .f32 0x7F800000#32 = (⊤ : EReal) := by simp [Ideal.ofBits, Ideal.ieee]

/-- The one-bit word of a decided proposition is 1 exactly when the proposition holds. -/
theorem ofBool_decide_eq_one (p : Prop) [Decidable p] : BitVec.ofBool (decide p) = 1#1 ↔ p := by
  by_cases hp : p <;> simp [hp]

/-- An extended real whose absolute value max x (-x) is below ⊤ is a real number: at x = ⊥ the maximum is -⊥ = ⊤,
    at x = ⊤ it is ⊤. -/
theorem real_of_abs_lt_top (x : EReal) (h : max x (-x) < ⊤) : ∃ a : ℝ, x = (a : EReal) := by
  induction x using EReal.rec with
  | bot => simp at h
  | coe a => exact ⟨a, rfl⟩
  | top => simp at h

/-- The precondition at index i: x0 i and x1 i are real, and x0 i · x1 i + c is strictly positive.
    The rank-0 result is read at its one index; a conjunction of one-bit words is 1 iff both are; a reduction by
    `and` over all axes that is 1 had a 1 at every index; an ordered comparison's word is 1 iff the order relation
    holds; the broadcast constants are their patterns' values at every index (+∞ and 0 for the two comparands). -/
theorem of_pre [Cert.Pre_finite_inputs.Facts] (x0 x1 x2 x3 : FVec Ideal Cert.Pre_finite_inputs.S2048x4x4608 .f32)
    (h : Cert.Pre_finite_inputs.fn (F := Ideal) x0 x1 x2 x3 = fun _ => 1#1) (i : Cert.Pre_finite_inputs.S2048x4x4608.Idx) :
    ∃ a b : ℝ, x0 i = (a : EReal) ∧ x1 i = (b : EReal) ∧ (0 : EReal) < x0 i * x1 i + Ideal.ofBits .f32 0x3089705F#32 := by
  have e := congrFun h ValueIdx.ix0
  dsimp only [Cert.Pre_finite_inputs.fn, Cert.Pre_finite_inputs.fn_part1] at e
  -- the five conjuncts: ((((all0 ∧ all1) ∧ all2) ∧ all3) ∧ all4)
  obtain ⟨e, e4⟩ := IntOp.andi_eq_one.1 e
  obtain ⟨e, -⟩ := IntOp.andi_eq_one.1 e
  obtain ⟨e, -⟩ := IntOp.andi_eq_one.1 e
  obtain ⟨e0, e1⟩ := IntOp.andi_eq_one.1 e
  -- each universally quantified conjunct at index i
  have p0 := Host.reduce_andi_all _ _ _ _ _ e0 i
  have p1 := Host.reduce_andi_all _ _ _ _ _ e1 i
  have p4 := Host.reduce_andi_all _ _ _ _ _ e4 i
  -- the element comparisons over the extended reals
  have q0 : Ideal.cmp .olt (max (x0 i : EReal) (-(x0 i))) (Ideal.ofBits .f32 0x7F800000#32) = 1#1 := p0
  have q1 : Ideal.cmp .olt (max (x1 i : EReal) (-(x1 i))) (Ideal.ofBits .f32 0x7F800000#32) = 1#1 := p1
  have q4 : Ideal.cmp .ogt ((x0 i : EReal) * x1 i + Ideal.ofBits .f32 0x3089705F#32) (Ideal.ofBits .f32 0x00000000#32) = 1#1 := p4
  rw [ofBits_inf] at q0 q1
  rw [Ideal.ofBits_zero_f32] at q4
  simp only [Ideal.cmp, ofBool_decide_eq_one] at q0 q1 q4
  obtain ⟨a, ha⟩ := real_of_abs_lt_top _ q0
  obtain ⟨b, hb⟩ := real_of_abs_lt_top _ q1
  exact ⟨a, b, ha, hb, q4⟩

end Cert.PairKL.Domain

end
-- ==== Proof.RefValue.lean ====
/-
  The reference program's result is the function `G`, on the logarithm's domain.

  Read one operation at a time, the reference's last stage at (b, i, j) is
  −( (0 + ∑ₖ p[b,i,k]·log(p[b,i,k] + ε)) − ∑ₖ p[b,i,k]·log(q[b,j,k] + ε) ), that is −(self b i − cross b i j): the row sum
  is broadcast along j, the contraction of the batched product runs over the last axis of both operands. With `self b i` a
  real number this is `cross b i j − self b i`, the value of `G`.
-/
import proofs.«113611_j56367150792858_1_alg».proof.Proof.Gen.ReferenceIdeal.Read
import proofs.«113611_j56367150792858_1_alg».proof.Proof.Spec

noncomputable section

namespace Cert.PairKL.RefValue

open Cert.ReferenceIdeal Cert.ReferenceIdeal.Gen Cert.ReferenceIdeal.Read Idealize.ShloMosaic Idealize.ShloMosaic.ValueIdx
open Cert.PairKL

variable [Cert.ReferenceIdeal.Facts]

/-- The reference's result array is `G` of the four inputs whenever the first pair is real with p + ε positive. -/
theorem ref_eq_G (x0 x1 x2 x3 : (⟨S2048x4x4608, .f32⟩ : BufTy).Contents (Elt Ideal))
    (hdom : ∀ i : SIn.Idx, ∃ a b : ℝ, x0 i = (a : EReal) ∧ x1 i = (b : EReal) ∧ (0 : EReal) < x0 i * x1 i + shift) :
    val_main_v14 (F := Ideal) x0 x1 x2 x3 = G x0 x1 x2 x3 := by
  funext j
  obtain ⟨b, i, c, rfl⟩ : ∃ (b : Fin 2048) (i : Fin 4) (c : Fin 4), j = ix3 b i c := ⟨j 0, j 1, j 2, eq_ix3 j⟩
  -- the row sum is read at (b, i, k) whatever the broadcast coordinate c
  have e6 : ∀ k : Fin 4608, idx_main_v6 (idx_main_v11 (idx_main_v12 (ix3 b i c))) k = ix3 b i k := fun k =>
    funext fun a => Fin.ext (by match a with | ⟨0, _⟩ => rfl | ⟨1, _⟩ => rfl | ⟨2, _⟩ => rfl)
  -- the product's left operand is read at (b, i, k), its right operand at (b, c, k)
  have el : ∀ k : Fin 4608, lidx_main_v10 (ix3 b i c) k = ix3 b i k := fun k =>
    funext fun a => Fin.ext (by match a with | ⟨0, _⟩ => rfl | ⟨1, _⟩ => rfl | ⟨2, _⟩ => rfl)
  have er : ∀ k : Fin 4608, ridx_main_v10 (ix3 b i c) k = ix3 b c k := fun k =>
    funext fun a => Fin.ext (by match a with | ⟨0, _⟩ => rfl | ⟨1, _⟩ => rfl | ⟨2, _⟩ => rfl)
  rw [val_main_v14_apply, val_main_v13_apply, val_main_v12_apply, val_main_v11_apply, val_main_v6_apply, val_main_v10_apply]
  simp only [e6, el, er, val_main_v5_apply, val_main_v4_apply, val_main_v3_apply, val_main_v0_apply, val_main_v2_apply,
    val_main_cst_apply, val_main_cst_0_apply, val_main_v9_apply, val_main_v8_apply, val_main_v1_apply, val_main_v7_apply,
    val_main_cst_1_apply, Ideal.hostNegf_def, Ideal.negf_def, Ideal.subf_def, Ideal.mulf_def, Ideal.addf_def,
    Ideal.hostUnary_log_def, Ideal.ofBits_def, Ideal.ofBits_zero_f32, zero_add]
  obtain ⟨r, hr⟩ := self_real x0 x1 hdom b i
  show -(self x0 x1 b i - cross x0 x1 x2 x3 b i c) = cross x0 x1 x2 x3 b i c - self x0 x1 b i
  rw [hr]
  exact neg_sub_of_real r _

end Cert.PairKL.RefValue

end
-- ==== Proof.KernelBlock.lean ====
/-
  The block value the kernel body stores, read at one index, over the extended reals. With p = v0 · v1 and
  q = v3 · v4 (elementwise products of [16, 4, 4608] blocks) and ε the f32 constant of pattern 0x3089705F, the
  stored [16, 4, 4] value at (r, i, c) is

      ∑ₖ p[r, i, k] · log (q[r, c, k] + ε)  −  ∑ₖ p[r, i, k] · log (p[r, i, k] + ε),      k over the 4608 lanes.

  The first sum is a batched product (batch axis 0, contraction over axis 2, free axis 1 of each operand) into a zero
  accumulator; the second is a sum over axis 2 of a [16, 4, 4608] block, reshaped [16, 4] → [16, 4, 1] and broadcast
  along the last axis to [16, 4, 4], so that it does not depend on c. The entry at (r, i, c) depends on rows (r, i, ·) of
  v0, v1 and on rows (r, c, ·) of v3, v4 only.
-/
import proofs.«113611_j56367150792858_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.PairKL.KernelBlock

open Cert.KernelIdeal Cert.KernelIdeal.Gen Idealize.ShloMosaic Idealize.ShloMosaic.ValueIdx

variable [Cert.KernelIdeal.Facts]
open Cert.KernelIdeal.Facts₀ Cert.KernelIdeal.Facts

/-- The batched product's dimension numbers: batch axis 0 of both operands, contracted axis 2 of both, free axis 1 of
    both; the result's axes are (batch, left free, right free). -/
abbrev D : DotDims S16x4x4608 S16x4x4608 S16x4x4 := dot_S16x4x4608_S16x4x4608_S16x4x4_2_2_1_1_0_0

/-! ### The operand indices of the batched product

At result index j = (j₀, j₁, j₂) and contraction index q the left operand is read at (j₀, j₁, q) and the right operand at
(j₀, j₂, q): axis 0 is the batch axis (the result's axis 0), axis 1 the free axis (the result's axis 1 for the left
operand, axis 2 for the right), axis 2 the contracted one. -/

theorem lhs0 (j : S16x4x4.Idx) (q : D.contr.Idx) : (D.lhsIdx j q 0).val = (j 0).val := by
  unfold DotDims.lhsIdx
  rw [dif_pos (show (0 : Fin S16x4x4608.rank) ∈ D.lhsBatch by decide)]
  rfl
theorem lhs1 (j : S16x4x4.Idx) (q : D.contr.Idx) : (D.lhsIdx j q 1).val = (j 1).val := by
  unfold DotDims.lhsIdx
  rw [dif_neg (show ¬(1 : Fin S16x4x4608.rank) ∈ D.lhsBatch by decide), dif_pos (show (1 : Fin S16x4x4608.rank) ∈ D.lhsNonContracting by decide)]
  rfl
theorem lhs2 (j : S16x4x4.Idx) (q : D.contr.Idx) : (D.lhsIdx j q 2).val = (q ⟨0, by decide⟩).val :=
  D.lhsIdx_val_of_single rfl j q
theorem rhs0 (j : S16x4x4.Idx) (q : D.contr.Idx) : (D.rhsIdx j q 0).val = (j 0).val := by
  unfold DotDims.rhsIdx
  rw [dif_pos (show (0 : Fin S16x4x4608.rank) ∈ D.rhsBatch by decide)]
  rfl
theorem rhs1 (j : S16x4x4.Idx) (q : D.contr.Idx) : (D.rhsIdx j q 1).val = (j 2).val := by
  unfold DotDims.rhsIdx
  rw [dif_neg (show ¬(1 : Fin S16x4x4608.rank) ∈ D.rhsBatch by decide), dif_pos (show (1 : Fin S16x4x4608.rank) ∈ D.rhsNonContracting by decide)]
  rfl
theorem rhs2 (j : S16x4x4.Idx) (q : D.contr.Idx) : (D.rhsIdx j q 2).val = (q ⟨0, by decide⟩).val :=
  D.rhsIdx_val_of_single rfl j q

/-- The batched product into the zero accumulator at (r, i, c): ∑ₖ A[r, i, k] · B[r, c, k]. The sum over the one-axis
    contraction index is re-indexed by that axis's coordinate k < 4608. -/
theorem matmul_at (A B : FVec Ideal S16x4x4608 .f32) (r : Fin 16) (i c : Fin 4) :
    matmul D none A B (constant S16x4x4 .f32 0x00000000#32) (ix3 r i c) = ∑ k : Fin 4608, A (ix3 r i k) * B (ix3 r c k) := by
  refine (Ideal.matmul_constant_zero_apply D none A B (ix3 r i c)).trans ?_
  rw [← Equiv.sum_comp (contrEquiv1 D 4608 rfl rfl).symm]
  refine Finset.sum_congr rfl fun k _ => ?_
  have hk := contrEquiv1_symm_val D 4608 rfl rfl k
  have el : D.lhsIdx (ix3 r i c) ((contrEquiv1 D 4608 rfl rfl).symm k) = ix3 r i k := funext fun a => Fin.ext (by
    match a with
    | ⟨0, _⟩ => exact lhs0 _ _
    | ⟨1, _⟩ => exact lhs1 _ _
    | ⟨2, _⟩ => exact (lhs2 _ _).trans hk)
  have er : D.rhsIdx (ix3 r i c) ((contrEquiv1 D 4608 rfl rfl).symm k) = ix3 r c k := funext fun a => Fin.ext (by
    match a with
    | ⟨0, _⟩ => exact rhs0 _ _
    | ⟨1, _⟩ => exact rhs1 _ _
    | ⟨2, _⟩ => exact (rhs2 _ _).trans hk)
  rw [el, er]

/-- The sum over axis 2 of a [16, 4, 4608] block at (r, i): ∑ₖ X[r, i, k]; the index (r, i) with k inserted on axis 2
    is (r, i, k), coordinate by coordinate. -/
theorem rowsum_at (X : FVec Ideal S16x4x4608 .f32) (h : S16x4x4608.Reduces [2] S16x4) (hφ : FKind.Formats .f32)
    (hacc : (0x00000000#32 : BitVec 32) = FKind.add.neutral .f32 hφ) (r : Fin 16) (i : Fin 4) :
    multiReduction .add [2] S16x4 X 0x00000000#32 h hφ hacc (ix2 r i) = ∑ k : Fin 4608, X (ix3 r i k) := by
  refine (Ideal.multiReduction_add_single X 0x00000000#32 h hφ hacc (ix2 r i)).trans ?_
  exact Finset.sum_congr rfl fun k _ => congrArg X (funext fun a => Fin.ext (by
    match a with | ⟨0, _⟩ => rfl | ⟨1, _⟩ => rfl | ⟨2, _⟩ => rfl))

/-- The reshape [16, 4] → [16, 4, 1] at (r, i, u) reads (r, i): both have row-major position 4 r + i, since u = 0. -/
theorem cast_at {α : Type} (Y : S16x4.Idx → α) (h : S16x4.ShapeCasts S16x4x1) (r : Fin 16) (i : Fin 4) (u : Fin 1) :
    shapeCast S16x4x1 Y h (ix3 r i u) = Y (ix2 r i) := by
  refine shapeCast_apply Y h (ix3 r i u) (ix2 r i) ?_
  rw [Shape.rowMajor_val_two, Shape.rowMajor_val_three]
  show r.val * 4 + i.val = (r.val * 4 + i.val) * 1 + u.val
  omega

/-- The broadcast [16, 4, 1] → [16, 4, 4] at (r, i, c) reads (r, i, 0): the unit axis is read at 0, the others kept. -/
theorem bcast_at {α : Type} (Z : S16x4x1.Idx → α) (h : S16x4x1.Broadcasts S16x4x4) (r : Fin 16) (i c : Fin 4) :
    broadcastTo S16x4x4 Z h (ix3 r i c) = Z (ix3 r i 0) := by
  refine broadcastTo_apply Z h (ix3 r i c) (ix3 r i 0) fun a => ?_
  match a with
  | ⟨0, _⟩ => show r.val = if (16 : Nat) = 1 then 0 else r.val; rw [if_neg (by decide)]
  | ⟨1, _⟩ => show i.val = if (4 : Nat) = 1 then 0 else i.val; rw [if_neg (by decide)]
  | ⟨2, _⟩ => show 0 = if (1 : Nat) = 1 then 0 else c.val; rw [if_pos rfl]

/-- The stored value at (r, i, c): ∑ₖ p[r, i, k] · log (q[r, c, k] + ε) − ∑ₖ p[r, i, k] · log (p[r, i, k] + ε) with
    p = v0 · v1, q = v3 · v4. The difference, products, sums with the splat ε and logarithms are elementwise; the batched
    product, the sum over axis 2, the reshape and the broadcast are read by the lemmas above. -/
theorem pay_apply (v0 v1 v3 v4 : Vec Ideal S16x4x4608 .f32) (r : Fin 16) (i c : Fin 4) :
    k0_pay1 (F := Ideal) v0 v1 v3 v4 (ix3 r i c)
      = (∑ k : Fin 4608, (v0 (ix3 r i k) * v1 (ix3 r i k)) * Ideal.log (v3 (ix3 r c k) * v4 (ix3 r c k) + Ideal.ofBits .f32 0x3089705F#32))
        - ∑ k : Fin 4608, (v0 (ix3 r i k) * v1 (ix3 r i k)) * Ideal.log (v0 (ix3 r i k) * v1 (ix3 r i k) + Ideal.ofBits .f32 0x3089705F#32) := by
  unfold k0_pay1
  refine (subf_apply _ _ _).trans ?_
  refine congrArg₂ (· - ·) ((matmul_at _ _ r i c).trans ?_)
    ((bcast_at _ _ r i c).trans ((cast_at _ _ r i 0).trans ((rowsum_at _ _ _ _ r i).trans ?_)))
  · rfl
  · rfl

end Cert.PairKL.KernelBlock

end
-- ==== Proof.KernelValue.lean ====
/-
  From blocks to the whole array.

  The grid has 128 points; point t stages rows 16t … 16t+15 of each of the four [2048, 4, 4608] inputs (all of the two
  trailing axes) and writes back rows 16t … 16t+15 of the [2048, 4, 4] result. What it writes at (r, i, c) of its block is
  the body's value there, which depends only on rows (r, i, ·) of the first pair's blocks and (r, c, ·) of the second pair's:
  exactly `G` of the whole arrays at (16t + r, i, c). The 128 blocks tile the result — row R lies in the block of point
  R / 16 — so the array ends holding `G` of the arguments.
-/
import proofs.«113611_j56367150792858_1_alg».proof.Proof.Gen.KernelIdeal.Value
import proofs.«113611_j56367150792858_1_alg».proof.Proof.KernelBlock
import proofs.«113611_j56367150792858_1_alg».proof.Proof.Spec
import Idealize.ShloMosaic.Lib.Pipeline.Value
import Idealize.ShloMosaic.Lib.ValueIdx

noncomputable section

namespace Cert.PairKL.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.PairKL

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point t is (t, 0, 0): the blocks move along the leading axis only. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Row r of point t's block is row 16t + r of the array. -/
def rowOf (t : Fin cfg0.N) (r : Fin 16) : Fin 2048 :=
  ⟨t.val * 16 + r.val, by have h := t.isLt; have hN : cfg0.N = 128 := N_0; have hr := r.isLt; omega⟩

/-- The first input's block at point t, read at (r, i, k), is the array at (16t + r, i, k). -/
theorem iblk0_apply (c : Dev nD) (t : Fin cfg0.N) (r : Fin 16) (i : Fin 4) (k : Fin 4608) :
    (iblk m c 0 t : Vec Ideal S16x4x4608 .f32) (ix3 r i k)
      = (m ((c : Thread nD τ).loc main_arg0) : SIn.Idx → EReal) (ix3 (rowOf t r) i k) := by
  obtain ⟨h0, h1, h2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 16 + 1 * r.val = t.val * 16 + r.val; rw [h0]; omega
  | ⟨1, _⟩ => show win0_0.index t (1 : Fin 3) * 4 + 1 * i.val = i.val; rw [h1]; omega
  | ⟨2, _⟩ => show win0_0.index t (2 : Fin 3) * 4608 + 1 * k.val = k.val; rw [h2]; omega

/-- The second input's block at point t, read at (r, i, k), is the array at (16t + r, i, k). -/
theorem iblk1_apply (c : Dev nD) (t : Fin cfg0.N) (r : Fin 16) (i : Fin 4) (k : Fin 4608) :
    (iblk m c 1 t : Vec Ideal S16x4x4608 .f32) (ix3 r i k)
      = (m ((c : Thread nD τ).loc main_arg1) : SIn.Idx → EReal) (ix3 (rowOf t r) i k) := by
  obtain ⟨-, -, -, h0, h1, h2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 16 + 1 * r.val = t.val * 16 + r.val; rw [h0]; omega
  | ⟨1, _⟩ => show win0_1.index t (1 : Fin 3) * 4 + 1 * i.val = i.val; rw [h1]; omega
  | ⟨2, _⟩ => show win0_1.index t (2 : Fin 3) * 4608 + 1 * k.val = k.val; rw [h2]; omega

/-- The third input's block at point t, read at (r, i, k), is the array at (16t + r, i, k). -/
theorem iblk2_apply (c : Dev nD) (t : Fin cfg0.N) (r : Fin 16) (i : Fin 4) (k : Fin 4608) :
    (iblk m c 2 t : Vec Ideal S16x4x4608 .f32) (ix3 r i k)
      = (m ((c : Thread nD τ).loc main_arg2) : SIn.Idx → EReal) (ix3 (rowOf t r) i k) := by
  obtain ⟨-, -, -, -, -, -, h0, h1, h2, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 3) * 16 + 1 * r.val = t.val * 16 + r.val; rw [h0]; omega
  | ⟨1, _⟩ => show win0_2.index t (1 : Fin 3) * 4 + 1 * i.val = i.val; rw [h1]; omega
  | ⟨2, _⟩ => show win0_2.index t (2 : Fin 3) * 4608 + 1 * k.val = k.val; rw [h2]; omega

/-- The fourth input's block at point t, read at (r, i, k), is the array at (16t + r, i, k). -/
theorem iblk3_apply (c : Dev nD) (t : Fin cfg0.N) (r : Fin 16) (i : Fin 4) (k : Fin 4608) :
    (iblk m c 3 t : Vec Ideal S16x4x4608 .f32) (ix3 r i k)
      = (m ((c : Thread nD τ).loc main_arg3) : SIn.Idx → EReal) (ix3 (rowOf t r) i k) := by
  obtain ⟨-, -, -, -, -, -, -, -, -, h0, h1, h2, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 3) * 16 + 1 * r.val = t.val * 16 + r.val; rw [h0]; omega
  | ⟨1, _⟩ => show win0_3.index t (1 : Fin 3) * 4 + 1 * i.val = i.val; rw [h1]; omega
  | ⟨2, _⟩ => show win0_3.index t (2 : Fin 3) * 4608 + 1 * k.val = k.val; rw [h2]; omega

/-- Where point t's result block sits in the result array: (r, i, c) of the block is (16t + r, i, c) of the array. -/
theorem out_emb (t : Fin cfg0.N) (r : Fin 16) (i c : Fin 4) :
    ((cfg0.win 4).blk t).view.emb (ix3 r i c) = (ix3 (rowOf t r) i c : SOut.Idx) := by
  obtain ⟨-, -, -, -, -, -, -, -, -, -, -, -, h0, h1, h2⟩ := idx_facts t
  funext a
  apply Fin.ext
  match a with
  | ⟨0, _⟩ => show win0_4.index t (0 : Fin 3) * 16 + 1 * r.val = t.val * 16 + r.val; rw [h0]; omega
  | ⟨1, _⟩ => show win0_4.index t (1 : Fin 3) * 4 + 1 * i.val = i.val; rw [h1]; omega
  | ⟨2, _⟩ => show win0_4.index t (2 : Fin 3) * 4 + 1 * c.val = c.val; rw [h2]; omega

/-- What point t writes back is block t of `G` of the four argument arrays. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1))
         (m ((c : Thread nD τ).loc main_arg2)) (m ((c : Thread nD τ).loc main_arg3))) := by
  rw [Cert.KernelIdeal.Value.flushed4]
  unfold out0_4
  rw [View.canon_unit_zero hz]
  simp only [View.ld_unit_zero (S := S16x4x4608) hz]
  funext y
  obtain ⟨r, i, cc, rfl⟩ : ∃ (r : Fin 16) (i cc : Fin 4), y = ix3 r i cc := ⟨y 0, y 1, y 2, eq_ix3 y⟩
  show k0_pay1 (F := Ideal) (iblk m c 0 t) (iblk m c 1 t) (iblk m c 2 t) (iblk m c 3 t) (ix3 r i cc)
    = G _ _ _ _ (((cfg0.win 4).blk t).view.emb (ix3 r i cc))
  rw [KernelBlock.pay_apply, out_emb]
  simp only [iblk0_apply, iblk1_apply, iblk2_apply, iblk3_apply]
  rfl

/-- An index of the result array is in point t's block iff its leading coordinate is in rows 16t … 16t+15 (the
    trailing axes are whole). -/
theorem mem_blk (t : Fin cfg0.N) (j : SOut.Idx) :
    j ∈ ((cfg0.win 4).blk t).view.set ↔ ∀ a : Fin 3, win0_4.index t a * S16x4x4.size a ≤ (j a).val ∧ (j a).val < win0_4.index t a * S16x4x4.size a + S16x4x4.size a := by
  show j ∈ ((View.whole main_v0).slice (win0_4.rect t)).set ↔ _
  rw [View.set_slice_whole, Rect.mem_set_unit]
  exact Iff.rfl

/-- The blocks tile the result: row R is in the block of point R / 16. -/
theorem cover (j : SOut.Idx) : ∃ t : Fin cfg0.N, (cfg0.win 4).flush t = true ∧ j ∈ ((cfg0.win 4).blk t).view.set := by
  have hN : cfg0.N = 128 := N_0
  have hj0 : (j 0).val < 2048 := (j 0).isLt
  have hj1 : (j 1).val < 4 := (j 1).isLt
  have hj2 : (j 2).val < 4 := (j 2).isLt
  let t : Fin cfg0.N := ⟨(j 0).val / 16, by omega⟩
  obtain ⟨-, -, -, -, -, -, -, -, -, -, -, -, h0, h1, h2⟩ := idx_facts t
  have ht : t.val = (j 0).val / 16 := rfl
  refine ⟨t, flush0_4 t, ?_⟩
  rw [mem_blk]
  intro a
  match a with
  | ⟨0, _⟩ => show win0_4.index t (0 : Fin 3) * 16 ≤ (j 0).val ∧ (j 0).val < win0_4.index t (0 : Fin 3) * 16 + 16; rw [h0]; omega
  | ⟨1, _⟩ => show win0_4.index t (1 : Fin 3) * 4 ≤ (j 1).val ∧ (j 1).val < win0_4.index t (1 : Fin 3) * 4 + 4; rw [h1]; omega
  | ⟨2, _⟩ => show win0_4.index t (2 : Fin 3) * 4 ≤ (j 2).val ∧ (j 2).val < win0_4.index t (2 : Fin 3) * 4 + 4; rw [h2]; omega

/-- So after the run the result array is `G` of the argument arrays. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The run, read: every weakly fair execution ends with the result array at `G` of the arguments, the arguments
    unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.PairKL.KernelValue

end
-- ==== Proof.lean ====
/-
  A kernel that forms, for p = input1 · mask1 and q = input2 · mask2 of shape [2048, 4, 4608],

      out[b, i, j] = ∑ₖ p[b,i,k] · log (q[b,j,k] + ε) − ∑ₖ p[b,i,k] · log (p[b,i,k] + ε)

  (sixteen batch rows per grid point, the first sum a batched matrix product, the second a lane sum broadcast along j),
  against a reference that forms the same two sums over the whole arrays and returns −(second − first).

  Over the real numbers the two are the same. Over the extended reals −(a − c) and c − a differ exactly when a and c are
  the same infinity, which the sums reach only where a logarithm leaves its domain. The precondition therefore asks, beside
  finite inputs, that input1 · mask1 + ε be positive: the logarithm of the reference's own first sum stays in its domain.
  That makes the second sum a real number a, and −(a − c) = c − a then holds for every extended real c — the first sum
  may still be infinite, and nothing is asked of input2 or mask2 beyond what the statement already says.

  The modules: `Spec` states the function G and the two facts about extended reals; `Domain` reads the precondition at an
  index; `RefValue` reads the reference's operations one at a time to G; `KernelBlock` reads the value the kernel body
  stores at an index of its block; `KernelValue` shows each grid point writes its block of G and that the blocks tile the
  result. Here the five claims are assembled. The three frames are the generated frame runs; the idealization rewrote
  nothing, so `preserves` is trivial.
-/
import proofs.«113611_j56367150792858_1_alg».proof.Defs
import proofs.«113611_j56367150792858_1_alg».proof.Proof.Gen.Kernel
import proofs.«113611_j56367150792858_1_alg».proof.Proof.Gen.Kernel.Skeleton
import proofs.«113611_j56367150792858_1_alg».proof.Proof.Gen.Kernel.Launch
import proofs.«113611_j56367150792858_1_alg».proof.Proof.Gen.Kernel.Points
import proofs.«113611_j56367150792858_1_alg».proof.Proof.Gen.Kernel.Frame
import proofs.«113611_j56367150792858_1_alg».proof.Proof.Gen.KernelIdeal
import proofs.«113611_j56367150792858_1_alg».proof.Proof.Gen.KernelIdeal.Skeleton
import proofs.«113611_j56367150792858_1_alg».proof.Proof.Gen.KernelIdeal.Launch
import proofs.«113611_j56367150792858_1_alg».proof.Proof.Gen.KernelIdeal.Points
import proofs.«113611_j56367150792858_1_alg».proof.Proof.Gen.KernelIdeal.Frame
import proofs.«113611_j56367150792858_1_alg».proof.Proof.Gen.ReferenceIdeal
import proofs.«113611_j56367150792858_1_alg».proof.Proof.Gen.KernelIdeal.Value
import proofs.«113611_j56367150792858_1_alg».proof.Proof.Gen.ReferenceIdeal.Run
import proofs.«113611_j56367150792858_1_alg».proof.Proof.Gen.ReferenceIdeal.Read
import proofs.«113611_j56367150792858_1_alg».proof.Proof.Gen.Pre_finite_inputs
import proofs.«113611_j56367150792858_1_alg».proof.Proof.Spec
import proofs.«113611_j56367150792858_1_alg».proof.Proof.Domain
import proofs.«113611_j56367150792858_1_alg».proof.Proof.RefValue
import proofs.«113611_j56367150792858_1_alg».proof.Proof.KernelValue
import Idealize.ShloMosaic.Adequacy
import Idealize.ShloMosaic.Init

noncomputable section

namespace Cert.Proof

open Idealize.ShloMosaic Idealize.ShloMosaic.TcCoe Idealize.SL.Sem Cert.PairKL

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- At the extended reals both programs end with the result array at `G` of the arguments: the kernel block by block, the
    reference operation by operation; the reference's −(self − cross) is the kernel's cross − self because the precondition
    keeps the first logarithm's argument positive and its inputs real, which makes `self` a real number. -/
theorem algebraic : Cert.algebraic_KernelIdeal_ReferenceIdeal := by
  intro m ρ m' ρ' hpre hagree
  refine ⟨fun c => G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.PairKL.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v14_eq _ _ _ _).trans
    (Cert.PairKL.RefValue.ref_eq_G _ _ _ _ fun i => Cert.PairKL.Domain.of_pre _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
